-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S640000x128 : Shape := ⟨2, ![640000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 56
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000x1, .f32⟩
  | .hbm, ⟨16, _⟩ => ⟨S_, .f32⟩
  | .hbm, ⟨17, _⟩ => ⟨S100000x1, .f32⟩
  | .hbm, ⟨18, _⟩ => ⟨S640000x1, .i32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S100000x128, .f32⟩
  | .hbm, ⟨34, _⟩ => ⟨S640000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .bf16⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .bf16⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S100000x1 : S_.BroadcastsInDim S100000x1 (![] : Fin 0 → Fin S100000x1.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000x1_S640000x1_S640000x1_1_0_0_1_wf : ScatterDims.WF S100000x1 S640000x1 S640000x1 [1] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S_, .f32⟩
  | .hbm, ⟨28, _⟩ => ⟨S640000x1, .f32⟩
  | .hbm, ⟨29, _⟩ => ⟨S_, .f32⟩
  | .hbm, ⟨30, _⟩ => ⟨S100000x1, .f32⟩
  | .hbm, ⟨31, _⟩ => ⟨S640000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S100000x128, .f32⟩
  | .hbm, ⟨58, _⟩ => ⟨S640000x1, .i32⟩
  | .hbm, ⟨59, _⟩ => ⟨S100000x128, .f32⟩
  | .hbm, ⟨60, _⟩ => ⟨S_, .f32⟩
  | .hbm, ⟨61, _⟩ => ⟨S640000x1, .f32⟩
  | .hbm, ⟨62, _⟩ => ⟨S_, .f32⟩
  | .hbm, ⟨63, _⟩ => ⟨S100000x1, .f32⟩
  | .hbm, ⟨64, _⟩ => ⟨S640000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, entry by entry, on the extended reals.

  A graph-convolution layer takes the neighbour means `agg` and the node features `x` (both [R, 128]), two
  weight matrices [128, 128] and a bias [128], and returns
      layer(agg, x, wl, wr, b)(p, q) = max( Σ_k agg(p, k)·wl(k, q) + Σ_k x(p, k)·wr(k, q) + b(q), 0 ).
  The closing linear map takes hidden features [R, 128], a weight matrix [128, 64] and a bias [64]:
      head(h, w, b)(p, q) = Σ_k h(p, k)·w(k, q) + b(q).
  Row `p` of either result reads only row `p` of the row-indexed operands (`layerAt_rows`, `headAt_rows`): that is
  why a block of rows of the result is the same function of the matching block of rows of the operands.
-/
import Idealize.ShloMosaic.PureOps.Ideal
import Idealize.ShloMosaic.Lib.ValueIdx

noncomputable section

namespace Cert.Sage

open Idealize.ShloMosaic Idealize.ShloMosaic.ValueIdx

/-- One entry of a layer: the two matrix products, the bias, and the rectifier. -/
def layerAt {R : ℕ} (agg x : (⟨2, ![R, 128]⟩ : Shape).Idx → EReal) (wl wr : (⟨2, ![128, 128]⟩ : Shape).Idx → EReal)
    (b : (⟨1, ![128]⟩ : Shape).Idx → EReal) (p : Fin R) (q : Fin 128) : EReal :=
  max ((∑ k : Fin 128, agg (ix2 p k) * wl (ix2 k q)) + (∑ k : Fin 128, x (ix2 p k) * wr (ix2 k q)) + b (ix1 q)) 0

/-- A layer as one array. -/
def layer {R : ℕ} (agg x : (⟨2, ![R, 128]⟩ : Shape).Idx → EReal) (wl wr : (⟨2, ![128, 128]⟩ : Shape).Idx → EReal)
    (b : (⟨1, ![128]⟩ : Shape).Idx → EReal) : (⟨2, ![R, 128]⟩ : Shape).Idx → EReal :=
  fun j => layerAt agg x wl wr b (j 0) (j 1)

theorem layer_ix2 {R : ℕ} (agg x : (⟨2, ![R, 128]⟩ : Shape).Idx → EReal) (wl wr : (⟨2, ![128, 128]⟩ : Shape).Idx → EReal)
    (b : (⟨1, ![128]⟩ : Shape).Idx → EReal) (p : Fin R) (q : Fin 128) :
    layer agg x wl wr b (ix2 p q) = layerAt agg x wl wr b p q := rfl

/-- Row `p` of a layer reads only row `p` of the neighbour means and of the features. -/
theorem layerAt_rows {R R' : ℕ} (agg x : (⟨2, ![R, 128]⟩ : Shape).Idx → EReal) (agg' x' : (⟨2, ![R', 128]⟩ : Shape).Idx → EReal)
    (wl wr : (⟨2, ![128, 128]⟩ : Shape).Idx → EReal) (b : (⟨1, ![128]⟩ : Shape).Idx → EReal) (p : Fin R) (p' : Fin R') (q q' : Fin 128)
    (hq : q = q') (ha : ∀ k : Fin 128, agg (ix2 p k) = agg' (ix2 p' k)) (hx : ∀ k : Fin 128, x (ix2 p k) = x' (ix2 p' k)) :
    layerAt agg x wl wr b p q = layerAt agg' x' wl wr b p' q' := by
  subst hq
  unfold layerAt
  simp only [ha, hx]

/-- One entry of the closing linear map. -/
def headAt {R : ℕ} (h : (⟨2, ![R, 128]⟩ : Shape).Idx → EReal) (w : (⟨2, ![128, 64]⟩ : Shape).Idx → EReal)
    (b : (⟨1, ![64]⟩ : Shape).Idx → EReal) (p : Fin R) (q : Fin 64) : EReal :=
  (∑ k : Fin 128, h (ix2 p k) * w (ix2 k q)) + b (ix1 q)

/-- The closing linear map as one array. -/
def head {R : ℕ} (h : (⟨2, ![R, 128]⟩ : Shape).Idx → EReal) (w : (⟨2, ![128, 64]⟩ : Shape).Idx → EReal)
    (b : (⟨1, ![64]⟩ : Shape).Idx → EReal) : (⟨2, ![R, 64]⟩ : Shape).Idx → EReal :=
  fun j => headAt h w b (j 0) (j 1)

theorem head_ix2 {R : ℕ} (h : (⟨2, ![R, 128]⟩ : Shape).Idx → EReal) (w : (⟨2, ![128, 64]⟩ : Shape).Idx → EReal)
    (b : (⟨1, ![64]⟩ : Shape).Idx → EReal) (p : Fin R) (q : Fin 64) :
    head h w b (ix2 p q) = headAt h w b p q := rfl

/-- Row `p` of the closing map reads only row `p` of the hidden features. -/
theorem headAt_rows {R R' : ℕ} (h : (⟨2, ![R, 128]⟩ : Shape).Idx → EReal) (h' : (⟨2, ![R', 128]⟩ : Shape).Idx → EReal)
    (w : (⟨2, ![128, 64]⟩ : Shape).Idx → EReal) (b : (⟨1, ![64]⟩ : Shape).Idx → EReal) (p : Fin R) (p' : Fin R') (q q' : Fin 64)
    (hq : q = q') (hh : ∀ k : Fin 128, h (ix2 p k) = h' (ix2 p' k)) :
    headAt h w b p q = headAt h' w b p' q' := by
  subst hq
  unfold headAt
  simp only [hh]

end Cert.Sage

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.KernelBody.lean ====
/-
  What each kernel body stores, read at one entry, at the ideal values.

  The first body loads a [5000, 128] block of neighbour means, the matching block of features, both [128, 128]
  weight matrices and the bias, and stores the rectified sum of the two matrix products and the bias: entry (p, q)
  of its store is `layerAt` of the loads. The second body computes the same layer of its loads, multiplies it by
  the [128, 64] output weights and adds the output bias: entry (p, q) of its store is `headAt` of that layer.
  The format changes on the way into the matrix unit are the identity on extended reals, a matrix product into the
  zero accumulator is the plain sum of products, and a bias cast to a row and repeated down the rows reads the
  bias at the column.
-/
import proofs.«165902_j37744172597441_2_alg».proof.Proof.Gen.KernelIdeal.Skeleton
import proofs.«165902_j37744172597441_2_alg».proof.Proof.Spec
import proofs.«165902_j37744172597441_2_alg».proof.Proof.LibMatmulZero
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.Sage

/-- A [5000, 128] × [128, 128] product into the zero accumulator at entry (p, q): the sum over the shared axis. -/
theorem prod128 {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.LibMatmulZero.matmul_zero_ix2 dot_S5000x128_S128x128_S5000x128_1_0_0_1_n_n rfl rfl rfl rfl
    (fun i c => by
      unfold DotDims.lhsIdx
      rw [dif_neg (show ¬(0 : Fin _) ∈ dot_S5000x128_S128x128_S5000x128_1_0_0_1_n_n.lhsBatch by decide),
        dif_pos (show (0 : Fin _) ∈ dot_S5000x128_S128x128_S5000x128_1_0_0_1_n_n.lhsNonContracting by decide)]
      rfl)
    (fun i c => by
      unfold DotDims.rhsIdx
      rw [dif_neg (show ¬(1 : Fin _) ∈ dot_S5000x128_S128x128_S5000x128_1_0_0_1_n_n.rhsBatch by decide),
        dif_pos (show (1 : Fin _) ∈ dot_S5000x128_S128x128_S5000x128_1_0_0_1_n_n.rhsNonContracting by decide)]
      rfl)
    none l r p q

/-- A [5000, 128] × [128, 64] product into the zero accumulator at entry (p, q). -/
theorem prod64 {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) :=
  Cert.LibMatmulZero.matmul_zero_ix2 dot_S5000x128_S128x64_S5000x64_1_0_0_1_n_n rfl rfl rfl rfl
    (fun i c => by
      unfold DotDims.lhsIdx
      rw [dif_neg (show ¬(0 : Fin _) ∈ dot_S5000x128_S128x64_S5000x64_1_0_0_1_n_n.lhsBatch by decide),
        dif_pos (show (0 : Fin _) ∈ dot_S5000x128_S128x64_S5000x64_1_0_0_1_n_n.lhsNonContracting by decide)]
      rfl)
    (fun i c => by
      unfold DotDims.rhsIdx
      rw [dif_neg (show ¬(1 : Fin _) ∈ dot_S5000x128_S128x64_S5000x64_1_0_0_1_n_n.rhsBatch by decide),
        dif_pos (show (1 : Fin _) ∈ dot_S5000x128_S128x64_S5000x64_1_0_0_1_n_n.rhsNonContracting by decide)]
      rfl)
    none l r p q

/-- A [128] bias laid as a row and repeated down 5000 rows reads, at (p, q), the bias at q. -/
theorem biasRow128 (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- A [64] bias laid as a row and repeated down 5000 rows reads, at (p, q), the bias at q. -/
theorem biasRow64 (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The first body's store at entry (p, q) is the layer of its loads at (p, q). -/
theorem pay0_at (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q) = layerAt x0 x1 x2 x3 x4 p q := by
  unfold k0_pay1 layerAt
  simp only [truncf_apply, maximumf_apply, addf_apply, broadcast_apply, shapeCast_self, prod128, biasRow128,
    Ideal.ofBits_def, Ideal.ofBits_zero_f32]

/-- The first body's store as one function: the layer of its loads. -/
theorem pay0_eq (x0 x1 : Vec Ideal S5000x128 .f32) (x2 x3 : Vec Ideal S128x128 .f32) (x4 : Vec Ideal S128 .f32) :
    k0_pay1 (F := Ideal) x0 x1 x2 x3 x4 = layer x0 x1 x2 x3 x4 :=
  funext fun j => by rw [eq_ix2 j]; exact pay0_at x0 x1 x2 x3 x4 _ _

/-- The second body's store at entry (p, q) is the closing map, at (p, q), of the layer of its loads. -/
theorem pay1_at (x0 : Vec Ideal S5000x128 .f32) (x1 : Vec Ideal S5000x128 .bf16) (x2 x3 : Vec Ideal S128x128 .f32)
    (x4 : Vec Ideal S128 .f32) (x5 : Vec Ideal S128x64 .f32) (x6 : Vec Ideal S64 .f32) (p : Fin 5000) (q : Fin 64) :
    k1_pay1 (F := Ideal) x0 x1 x2 x3 x4 x5 x6 (ix2 p q) = headAt (layer x0 x1 x2 x3 x4) x5 x6 p q := by
  unfold k1_pay1 headAt
  simp only [layer_ix2]
  unfold layerAt
  simp only [truncf_apply, maximumf_apply, addf_apply, broadcast_apply, shapeCast_self, prod128, prod64, biasRow128,
    biasRow64, Ideal.ofBits_def, Ideal.ofBits_zero_f32]

/-- The second body's store as one function. -/
theorem pay1_eq (x0 : Vec Ideal S5000x128 .f32) (x1 : Vec Ideal S5000x128 .bf16) (x2 x3 : Vec Ideal S128x128 .f32)
    (x4 : Vec Ideal S128 .f32) (x5 : Vec Ideal S128x64 .f32) (x6 : Vec Ideal S64 .f32) :
    k1_pay1 (F := Ideal) x0 x1 x2 x3 x4 x5 x6 = head (layer x0 x1 x2 x3 x4) x5 x6 :=
  funext fun j => by rw [eq_ix2 j]; exact pay1_at x0 x1 x2 x3 x4 x5 x6 _ _

end Cert.KernelIdeal.Body

end
-- ==== Proof.KernelArrays.lean ====
/-
  From blocks to arrays: what each kernel leaves in its output array, for any contents `V` of the buffers at
  the kernel's entry.

  Both kernels walk 20 grid points; point `t` reads rows 5000·t … 5000·t + 4999 of its two row-indexed operands,
  the whole of every weight and bias, and writes back rows 5000·t … 5000·t + 4999 of its output. A row of a layer
  (and of the closing map) reads only the same row of the row-indexed operands, so the block point `t` writes
  back is the block of ONE whole-array function of the entry contents; the 20 blocks tile the output's
  100000 rows, so the output array ends holding that function.
-/
import proofs.«165902_j37744172597441_2_alg».proof.Proof.Gen.KernelIdeal.Frame
import proofs.«165902_j37744172597441_2_alg».proof.Proof.KernelBody
import Idealize.ShloMosaic.Lib.Pipeline.Value

set_option maxRecDepth 16384

noncomputable section

namespace Cert.KernelIdeal.Arrays

open Idealize.ShloMosaic Idealize.ShloMosaic.ValueIdx Idealize.ShloMosaic.TcCoe Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first kernel -/

/-- The printed index maps over the grid: the row-indexed windows sit at block row `t`, the others at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the neighbour-mean block at point `t` is row 5000·t + p of the array. -/
theorem blk0_0 (c : Dev nD) (t : Fin cfg0.N) (p : Fin 5000) (k : Fin 128) (r : Fin 100000)
    (hr : r.val = 5000 * t.val + p.val) :
    (iblk0 V c 0 t : S5000x128.Idx → EReal) (ix2 p k) = (V c main_v21 : S100000x128.Idx → EReal) (ix2 r k) := by
  unfold iblk0
  rw [View.read_apply]
  show (V c main_v21 : S100000x128.Idx → EReal) (((cfg0.win 0).blk t).view.emb (ix2 p k)) = _
  refine congrArg (V c main_v21 : S100000x128.Idx → EReal) ?_
  obtain ⟨e0, e1, -⟩ := idx0 t
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of the feature block at point `t` is row 5000·t + p of the array. -/
theorem blk0_1 (c : Dev nD) (t : Fin cfg0.N) (p : Fin 5000) (k : Fin 128) (r : Fin 100000)
    (hr : r.val = 5000 * t.val + p.val) :
    (iblk0 V c 1 t : S5000x128.Idx → EReal) (ix2 p k) = (V c main_arg0 : S100000x128.Idx → EReal) (ix2 r k) := by
  unfold iblk0
  rw [View.read_apply]
  show (V c main_arg0 : S100000x128.Idx → EReal) (((cfg0.win 1).blk t).view.emb (ix2 p k)) = _
  refine congrArg (V c main_arg0 : S100000x128.Idx → EReal) ?_
  obtain ⟨-, -, e0, e1, -⟩ := idx0 t
  funext a; apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Each weight and the bias arrive whole at every point. -/
theorem blk0_2 (c : Dev nD) (t : Fin cfg0.N) :
    (iblk0 V c 2 t : S128x128.Idx → EReal) = (V c main_arg2 : S128x128.Idx → EReal) := by
  funext y
  unfold iblk0
  rw [View.read_apply]
  show (V c main_arg2 : S128x128.Idx → EReal) (((cfg0.win 2).blk t).view.emb y) = _
  refine congrArg (V c main_arg2 : S128x128.Idx → EReal) ?_
  obtain ⟨-, -, -, -, e0, e1, -⟩ := idx0 t
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk0_3 (c : Dev nD) (t : Fin cfg0.N) :
    (iblk0 V c 3 t : S128x128.Idx → EReal) = (V c main_arg3 : S128x128.Idx → EReal) := by
  funext y
  unfold iblk0
  rw [View.read_apply]
  show (V c main_arg3 : S128x128.Idx → EReal) (((cfg0.win 3).blk t).view.emb y) = _
  refine congrArg (V c main_arg3 : S128x128.Idx → EReal) ?_
  obtain ⟨-, -, -, -, -, -, e0, e1, -⟩ := idx0 t
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk0_4 (c : Dev nD) (t : Fin cfg0.N) :
    (iblk0 V c 4 t : S128.Idx → EReal) = (V c main_arg4 : S128.Idx → EReal) := by
  funext y
  unfold iblk0
  rw [View.read_apply]
  show (V c main_arg4 : S128.Idx → EReal) (((cfg0.win 4).blk t).view.emb y) = _
  refine congrArg (V c main_arg4 : S128.Idx → EReal) ?_
  obtain ⟨-, -, -, -, -, -, -, -, e0, -⟩ := idx0 t
  funext a; apply Fin.ext
  match a with
  | ⟨0, _⟩ => show win0_4.index t (0 : Fin 1) * 128 + 1 * (y 0).val = (y 0).val; rw [e0]; omega

/-- The hidden features as one function of the entry contents. -/
def hidden (c : Dev nD) : S100000x128.Idx → EReal :=
  layer (V c main_v21 : S100000x128.Idx → EReal) (V c main_arg0) (V c main_arg2) (V c main_arg3) (V c main_arg4)

/-- What point `t` writes back is block `t` of the hidden features. -/
theorem flushed0 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [Body.pay0_eq, blk0_2 V c t, blk0_3 V c t, blk0_4 V c t]
  funext y
  show layer (iblk0 V c 0 t) (iblk0 V c 1 t) (V c main_arg2) (V c main_arg3) (V c main_arg4) y
    = hidden V c (((cfg0.win 5).blk t).view.emb y)
  obtain ⟨-, -, -, -, -, -, -, -, -, e0, e1⟩ := idx0 t
  have hr : ((((cfg0.win 5).blk t).view.emb y) 0).val = 5000 * t.val + (y 0).val := by
    show win0_5.index t (0 : Fin 2) * 5000 + 1 * (y 0).val = _
    rw [e0]; omega
  have hq : y 1 = (((cfg0.win 5).blk t).view.emb y) 1 := Fin.ext (by
    show (y 1).val = win0_5.index t (1 : Fin 2) * 128 + 1 * (y 1).val
    rw [e1]; omega)
  unfold hidden layer
  exact layerAt_rows _ _ _ _ _ _ _ _ _ _ _ hq (fun k => blk0_0 V c t (y 0) k _ hr) (fun k => blk0_1 V c t (y 0) k _ hr)

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- The 20 blocks of 5000 rows tile the 100000 rows: row r is in the block of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  refine ⟨t, flush0_5 t, ?_⟩
  obtain ⟨-, -, -, -, -, -, -, -, -, e0, e1⟩ := idx0 t
  have ht : t.val = (i 0).val / 5000 := rfl
  rw [mem_blk0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The first kernel's output array ends holding the hidden features of its entry contents. -/
theorem final0 (c : Dev nD) : (dat0 V c).arrAt 5 cfg0.N = hidden V c :=
  (dat0 V c).arrAt_eq_of_cover 5 (hidden V c) (fun t _ => flushed0 V c t) cover0

/-! ## The second kernel -/

/-- The printed index maps over the grid: the row-indexed windows sit at block row `t`, the others at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of the neighbour-mean block at point `t` is row 5000·t + p of the array. -/
theorem blk1_0 (c : Dev nD) (t : Fin cfg1.N) (p : Fin 5000) (k : Fin 128) (r : Fin 100000)
    (hr : r.val = 5000 * t.val + p.val) :
    (iblk1 V c 0 t : S5000x128.Idx → EReal) (ix2 p k) = (V c main_v35 : S100000x128.Idx → EReal) (ix2 r k) := by
  unfold iblk1
  rw [View.read_apply]
  show (V c main_v35 : S100000x128.Idx → EReal) (((cfg1.win 0).blk t).view.emb (ix2 p k)) = _
  refine congrArg (V c main_v35 : S100000x128.Idx → EReal) ?_
  obtain ⟨e0, e1, -⟩ := idx1 t
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of the hidden-feature block at point `t` is row 5000·t + p of the array. -/
theorem blk1_1 (c : Dev nD) (t : Fin cfg1.N) (p : Fin 5000) (k : Fin 128) (r : Fin 100000)
    (hr : r.val = 5000 * t.val + p.val) :
    (iblk1 V c 1 t : S5000x128.Idx → EReal) (ix2 p k) = (V c main_v22 : S100000x128.Idx → EReal) (ix2 r k) := by
  unfold iblk1
  rw [View.read_apply]
  show (V c main_v22 : S100000x128.Idx → EReal) (((cfg1.win 1).blk t).view.emb (ix2 p k)) = _
  refine congrArg (V c main_v22 : S100000x128.Idx → EReal) ?_
  obtain ⟨-, -, e0, e1, -⟩ := idx1 t
  funext a; apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Each weight and bias arrives whole at every point. -/
theorem blk1_2 (c : Dev nD) (t : Fin cfg1.N) :
    (iblk1 V c 2 t : S128x128.Idx → EReal) = (V c main_arg5 : S128x128.Idx → EReal) := by
  funext y
  unfold iblk1
  rw [View.read_apply]
  show (V c main_arg5 : S128x128.Idx → EReal) (((cfg1.win 2).blk t).view.emb y) = _
  refine congrArg (V c main_arg5 : S128x128.Idx → EReal) ?_
  obtain ⟨-, -, -, -, e0, e1, -⟩ := idx1 t
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk1_3 (c : Dev nD) (t : Fin cfg1.N) :
    (iblk1 V c 3 t : S128x128.Idx → EReal) = (V c main_arg6 : S128x128.Idx → EReal) := by
  funext y
  unfold iblk1
  rw [View.read_apply]
  show (V c main_arg6 : S128x128.Idx → EReal) (((cfg1.win 3).blk t).view.emb y) = _
  refine congrArg (V c main_arg6 : S128x128.Idx → EReal) ?_
  obtain ⟨-, -, -, -, -, -, e0, e1, -⟩ := idx1 t
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blk1_4 (c : Dev nD) (t : Fin cfg1.N) :
    (iblk1 V c 4 t : S128.Idx → EReal) = (V c main_arg7 : S128.Idx → EReal) := by
  funext y
  unfold iblk1
  rw [View.read_apply]
  show (V c main_arg7 : S128.Idx → EReal) (((cfg1.win 4).blk t).view.emb y) = _
  refine congrArg (V c main_arg7 : S128.Idx → EReal) ?_
  obtain ⟨-, -, -, -, -, -, -, -, e0, -⟩ := idx1 t
  funext a; apply Fin.ext
  match a with
  | ⟨0, _⟩ => show win1_4.index t (0 : Fin 1) * 128 + 1 * (y 0).val = (y 0).val; rw [e0]; omega

theorem blk1_5 (c : Dev nD) (t : Fin cfg1.N) :
    (iblk1 V c 5 t : S128x64.Idx → EReal) = (V c main_arg8 : S128x64.Idx → EReal) := by
  funext y
  unfold iblk1
  rw [View.read_apply]
  show (V c main_arg8 : S128x64.Idx → EReal) (((cfg1.win 5).blk t).view.emb y) = _
  refine congrArg (V c main_arg8 : S128x64.Idx → EReal) ?_
  obtain ⟨-, -, -, -, -, -, -, -, -, e0, e1, -⟩ := idx1 t
  funext a; apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

theorem blk1_6 (c : Dev nD) (t : Fin cfg1.N) :
    (iblk1 V c 6 t : S64.Idx → EReal) = (V c main_arg9 : S64.Idx → EReal) := by
  funext y
  unfold iblk1
  rw [View.read_apply]
  show (V c main_arg9 : S64.Idx → EReal) (((cfg1.win 6).blk t).view.emb y) = _
  refine congrArg (V c main_arg9 : S64.Idx → EReal) ?_
  obtain ⟨-, -, -, -, -, -, -, -, -, -, -, e0, -⟩ := idx1 t
  funext a; apply Fin.ext
  match a with
  | ⟨0, _⟩ => show win1_6.index t (0 : Fin 1) * 64 + 1 * (y 0).val = (y 0).val; rw [e0]; omega

/-- The second kernel's result as one function of its entry contents: the closing map of the second layer. -/
def result (c : Dev nD) : S100000x64.Idx → EReal :=
  head (layer (V c main_v35 : S100000x128.Idx → EReal) (V c main_v22 : S100000x128.Idx → EReal) (V c main_arg5) (V c main_arg6) (V c main_arg7))
    (V c main_arg8) (V c main_arg9)

/-- What point `t` writes back is block `t` of that result. -/
theorem flushed1 (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1,
    View.ld_unit_zero (S := S128x64) hz2, View.ld_unit_zero (S := S64) hz1]
  rw [Body.pay1_eq, blk1_2 V c t, blk1_3 V c t, blk1_4 V c t, blk1_5 V c t, blk1_6 V c t]
  funext y
  show head (layer (iblk1 V c 0 t) (iblk1 V c 1 t) (V c main_arg5) (V c main_arg6) (V c main_arg7)) (V c main_arg8) (V c main_arg9) y
    = result V c (((cfg1.win 7).blk t).view.emb y)
  obtain ⟨-, -, -, -, -, -, -, -, -, -, -, -, e0, e1⟩ := idx1 t
  have hr : ((((cfg1.win 7).blk t).view.emb y) 0).val = 5000 * t.val + (y 0).val := by
    show win1_7.index t (0 : Fin 2) * 5000 + 1 * (y 0).val = _
    rw [e0]; omega
  have hq : y 1 = (((cfg1.win 7).blk t).view.emb y) 1 := Fin.ext (by
    show (y 1).val = win1_7.index t (1 : Fin 2) * 64 + 1 * (y 1).val
    rw [e1]; omega)
  unfold result head
  refine headAt_rows _ _ _ _ _ _ _ _ hq (fun k => ?_)
  exact layerAt_rows _ _ _ _ _ _ _ _ _ _ _ rfl (fun j => blk1_0 V c t (y 0) j _ hr) (fun j => blk1_1 V c t (y 0) j _ hr)

/-- An index of the array is in point `t`'s block iff each coordinate is in the block's range on its axis. -/
theorem mem_blk1 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v36).slice (win1_7.rect t)).set ↔ _
  rw [View.set_slice_whole, Rect.mem_set_unit]
  exact Iff.rfl

/-- The 20 blocks of 5000 rows tile the 100000 rows. -/
theorem cover1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; omega⟩
  refine ⟨t, flush1_7 t, ?_⟩
  obtain ⟨-, -, -, -, -, -, -, -, -, -, -, -, e0, e1⟩ := idx1 t
  have ht : t.val = (i 0).val / 5000 := rfl
  rw [mem_blk1]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 64 ≤ (i 1).val ∧ (i 1).val < win1_7.index t (1 : Fin 2) * 64 + 64
    rw [e1]; omega

/-- The second kernel's output array ends holding the result of its entry contents. -/
theorem final1 (c : Dev nD) : (dat1 V c).arrAt 7 cfg1.N = result V c :=
  (dat1 V c).arrAt_eq_of_cover 7 (result V c) (fun t _ => flushed1 V c t) cover1

end Cert.KernelIdeal.Arrays

end
-- ==== Proof.Mean.lean ====
/-
  Mean aggregation over a node's incoming edges, as the chain of host operations both programs run.

  The edge list is a [2, 640000] array of node numbers: row 0 the sources, row 1 the destinations. For a feature
  array `h` of shape [100000, 128] the chain gathers row `src(e)` of `h` for every edge `e` (a negative source
  first shifted up by the number of nodes, as array indexing does), adds the gathered rows into a zero array at row
  `dst(e)`, and divides every row by the larger of its in-degree and one, the in-degree being the same scatter-add
  of ones into a zero column. It is kept as ONE function of `h` and the edge list: the two programs apply it to
  equal arguments, so it is never opened.
-/
import proofs.«165902_j37744172597441_2_alg».proof.Proof.Gen.ReferenceIdeal
import proofs.«165902_j37744172597441_2_alg».proof.Proof.Spec
import Idealize.ShloMosaic.PureOps.Ideal

noncomputable section

namespace Cert.Sage

open Idealize.ShloMosaic Cert.ReferenceIdeal Cert.ReferenceIdeal.Gen

/-- Row 0 of the edge list: the source of every edge. -/
def srcOf (ei : IVec S2x640000 32) : IVec S640000 32 :=
  shapeCast _ (extractStridedSlice S1x640000 ![0, 0] ei slices_S2x640000_S1x640000_0_0) shapeCasts_S1x640000_S640000

/-- Row 1 of the edge list: the destination of every edge. -/
def dstOf (ei : IVec S2x640000 32) : IVec S640000 32 :=
  shapeCast _ (extractStridedSlice S1x640000 ![1, 0] ei slices_S2x640000_S1x640000_1_0) shapeCasts_S1x640000_S640000

/-- The gather's start indices: each source, a negative one shifted up by the number of nodes, as a column. -/
def srcStart (ei : IVec S2x640000 32) : IVec S640000x1 32 :=
  broadcastInDim S640000x1 ![0] bcast_S640000_S640000x1_0
    (select (cmpi .slt (srcOf ei) (broadcastInDim S640000 ![] bcast_S_S640000 (constantI S_ 32 0#32)))
      (addi (srcOf ei) (broadcastInDim S640000 ![] bcast_S_S640000 (constantI S_ 32 100000#32))) (srcOf ei))

/-- The scatter's indices: each destination, as a column. -/
def dstStart (ei : IVec S2x640000 32) : IVec S640000x1 32 :=
  broadcastInDim S640000x1 ![0] bcast_S640000_S640000x1_0 (dstOf ei)

/-- The divisor: every node's in-degree (ones added at the destinations into a zero column), or one if larger. -/
def denom (ei : IVec S2x640000 32) : FVec Ideal S100000x1 .f32 :=
  maximumf
    (Host.scatterAdd scatter_S100000x1_S640000x1_S640000x1_1_0_0_1
      (broadcastInDim S100000x1 ![] bcast_S_S100000x1 (constant S_ .f32 0x00000000#32)) (dstStart ei)
      (broadcastInDim S640000x1 ![] bcast_S_S640000x1 (constant S_ .f32 0x3F800000#32)))
    (broadcastInDim S100000x1 ![] bcast_S_S100000x1 (constant S_ .f32 0x3F800000#32))

/-- The mean of `h` over each node's incoming edges. -/
def mean (h : FVec Ideal S100000x128 .f32) (ei : IVec S2x640000 32) : FVec Ideal S100000x128 .f32 :=
  Host.divf
    (Host.scatterAdd scatter_S100000x128_S640000x1_S640000x128_1_0_0_1
      (broadcastInDim S100000x128 ![] bcast_S_S100000x128 (constant S_ .f32 0x00000000#32)) (dstStart ei)
      (Host.gather gather_S100000x128_S640000x1_S640000x128_1_0_n_n_0_1_1128 h (srcStart ei)))
    (broadcastInDim S100000x128 ![0, 1] bcast_S100000x1_S100000x128_0_1 (denom ei))

/-- The whole network: two layers over mean-aggregated neighbours — the second layer's neighbours averaged from the
    first layer's output — and the closing linear map. -/
def net (x : FVec Ideal S100000x128 .f32) (ei : IVec S2x640000 32) (w1l w1r : FVec Ideal S128x128 .f32)
    (b1 : FVec Ideal S128 .f32) (w2l w2r : FVec Ideal S128x128 .f32) (b2 : FVec Ideal S128 .f32)
    (wlin : FVec Ideal S128x64 .f32) (blin : FVec Ideal S64 .f32) : FVec Ideal S100000x64 .f32 :=
  head (layer (mean (layer (mean x ei) x w1l w1r b1) ei) (layer (mean x ei) x w1l w1r b1) w2l w2r b2) wlin blin

end Cert.Sage

end
-- ==== Proof.KernelRun.lean ====
/-
  The kernel program's run, with its result named and read.

  The program is two stretches of host operations and two kernels in turn. Its frame states what every buffer holds
  at the four boundaries as a fold from the launch memory; here the run is stated once more with the result buffer's
  final contents kept, and those contents are read back through the fold:
    * the first stretch leaves the mean of the features over incoming edges in the first kernel's operand;
    * the first kernel leaves the first hidden layer `h1` in its output array;
    * the second stretch leaves the mean of `h1` in the second kernel's operand — it gathers `h1` at the narrower
      float format and widens it, the identity on extended reals, and divides by the in-degree the first stretch
      computed;
    * the second kernel leaves the closing map of the second layer in the result.
  So the result is `net` of the launch contents of the ten arguments.
-/
import proofs.«165902_j37744172597441_2_alg».proof.Proof.Gen.KernelIdeal.Frame
import proofs.«165902_j37744172597441_2_alg».proof.Proof.KernelArrays
import proofs.«165902_j37744172597441_2_alg».proof.Proof.Mean
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.Sage

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the ten arguments as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end AnyInstance

/-! ## The boundary contents read back, at the ideal values -/

section AtIdeal

variable (m : (ℓ : Loc nD τ sig) → Buf (Elt Ideal) ℓ) (ρ : Dev nD → PrngReg)

/-- After the first stretch the source row of the edge list … -/
theorem W1_src (c : Dev nD) :
    W1 m ρ c (Proc.devRef .tc main_v1) = srcOf (m ((c : Thread nD τ).loc main_arg1)) := by
  show StableHlo.after hostOps0 (W0 m ρ c) (Proc.devRef .tc main_v1) = _
  dsimp only [hostOps0]
  after_results
  rfl

/-- … and the destination row are the slices of the launch contents, -/
theorem W1_dst (c : Dev nD) :
    W1 m ρ c (Proc.devRef .tc main_v3) = dstOf (m ((c : Thread nD τ).loc main_arg1)) := by
  show StableHlo.after hostOps0 (W0 m ρ c) (Proc.devRef .tc main_v3) = _
  dsimp only [hostOps0]
  after_results
  rfl

/-- the divisor is the in-degree or one, -/
theorem W1_denom (c : Dev nD) :
    W1 m ρ c (Proc.devRef .tc main_v9) = denom (m ((c : Thread nD τ).loc main_arg1)) := by
  show StableHlo.after hostOps0 (W0 m ρ c) (Proc.devRef .tc main_v9) = _
  dsimp only [hostOps0]
  after_results
  rfl

/-- and the first kernel's first operand is the mean of the features. -/
theorem W1_agg (c : Dev nD) :
    W1 m ρ c (Proc.devRef .tc main_v21)
      = mean (m ((c : Thread nD τ).loc main_arg0)) (m ((c : Thread nD τ).loc main_arg1)) := by
  show StableHlo.after hostOps0 (W0 m ρ c) (Proc.devRef .tc main_v21) = _
  dsimp only [hostOps0]
  after_results_simp
  rfl

/-- The first stretch writes no argument. -/
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results

/-- The first hidden layer, as a function of the launch contents. -/
abbrev h1 (c : Dev nD) : FVec Ideal S100000x128 .f32 :=
  layer (mean (m ((c : Thread nD τ).loc main_arg0)) (m ((c : Thread nD τ).loc main_arg1))) (m ((c : Thread nD τ).loc main_arg0))
    (m ((c : Thread nD τ).loc main_arg2)) (m ((c : Thread nD τ).loc main_arg3)) (m ((c : Thread nD τ).loc main_arg4))

/-- The first kernel leaves the first hidden layer in its output array. -/
theorem W2_h1 (c : Dev nD) : W2 m ρ c (Proc.devRef .tc main_v22) = h1 m c := by
  refine (W2_arr m ρ c 5).trans ((Arrays.final0 (V1 m ρ) c).trans ?_)
  show layer (W1 m ρ c (Proc.devRef .tc main_v21)) (W1 m ρ c (Proc.devRef .tc main_arg0)) (W1 m ρ c (Proc.devRef .tc main_arg2))
    (W1 m ρ c (Proc.devRef .tc main_arg3)) (W1 m ρ c (Proc.devRef .tc main_arg4)) = _
  rw [W1_agg, W1_arg0, W1_arg2, W1_arg3, W1_arg4]

/-- The first kernel writes none of the first stretch's edge rows nor the divisor. -/
theorem W2_src (c : Dev nD) : W2 m ρ c (Proc.devRef .tc main_v1) = srcOf (m ((c : Thread nD τ).loc main_arg1)) :=
  (W2_of_ne m ρ c main_v1 (by decide)).trans (W1_src m ρ c)
theorem W2_dst (c : Dev nD) : W2 m ρ c (Proc.devRef .tc main_v3) = dstOf (m ((c : Thread nD τ).loc main_arg1)) :=
  (W2_of_ne m ρ c main_v3 (by decide)).trans (W1_dst m ρ c)
theorem W2_denom (c : Dev nD) : W2 m ρ c (Proc.devRef .tc main_v9) = denom (m ((c : Thread nD τ).loc main_arg1)) :=
  (W2_of_ne m ρ c main_v9 (by decide)).trans (W1_denom m ρ c)

/-- After the second stretch the second kernel's first operand is the mean of the first hidden layer: the gather at
    the narrower format widened is the gather, and the divisor is the first stretch's. -/
theorem W3_agg (c : Dev nD) :
    W3 m ρ c (Proc.devRef .tc main_v35) = mean (h1 m c) (m ((c : Thread nD τ).loc main_arg1)) := by
  show StableHlo.after hostOps1 (W2 m ρ c) (Proc.devRef .tc main_v35) = _
  dsimp only [hostOps1]
  after_results
  rw [W2_src, W2_dst, W2_denom, W2_h1]
  rfl

/-- The second stretch leaves the first hidden layer where the first kernel put it. -/
theorem W3_h1 (c : Dev nD) : W3 m ρ c (Proc.devRef .tc main_v22) = h1 m c := by
  show StableHlo.after hostOps1 (W2 m ρ c) (Proc.devRef .tc main_v22) = _
  dsimp only [hostOps1]
  after_results
  exact W2_h1 m ρ c

/-- The second kernel's weights and biases are the launch contents: what its output boundary holds of them is what
    it found (an input window's array is left as entered), and that is as launched. -/
theorem W3_arg5 (c : Dev nD) : W3 m ρ c (Proc.devRef .tc main_arg5) = m ((c : Thread nD τ).loc main_arg5) :=
  ((W4_arr m ρ c 2).trans (((dat1 (V3 m ρ) c).arrAt_in 2 rfl _).trans (A_eq1 (V3 m ρ) c 2))).symm.trans (W4_main_arg5 m ρ c)
theorem W3_arg6 (c : Dev nD) : W3 m ρ c (Proc.devRef .tc main_arg6) = m ((c : Thread nD τ).loc main_arg6) :=
  ((W4_arr m ρ c 3).trans (((dat1 (V3 m ρ) c).arrAt_in 3 rfl _).trans (A_eq1 (V3 m ρ) c 3))).symm.trans (W4_main_arg6 m ρ c)
theorem W3_arg7 (c : Dev nD) : W3 m ρ c (Proc.devRef .tc main_arg7) = m ((c : Thread nD τ).loc main_arg7) :=
  ((W4_arr m ρ c 4).trans (((dat1 (V3 m ρ) c).arrAt_in 4 rfl _).trans (A_eq1 (V3 m ρ) c 4))).symm.trans (W4_main_arg7 m ρ c)
theorem W3_arg8 (c : Dev nD) : W3 m ρ c (Proc.devRef .tc main_arg8) = m ((c : Thread nD τ).loc main_arg8) :=
  ((W4_arr m ρ c 5).trans (((dat1 (V3 m ρ) c).arrAt_in 5 rfl _).trans (A_eq1 (V3 m ρ) c 5))).symm.trans (W4_main_arg8 m ρ c)
theorem W3_arg9 (c : Dev nD) : W3 m ρ c (Proc.devRef .tc main_arg9) = m ((c : Thread nD τ).loc main_arg9) :=
  ((W4_arr m ρ c 6).trans (((dat1 (V3 m ρ) c).arrAt_in 6 rfl _).trans (A_eq1 (V3 m ρ) c 6))).symm.trans (W4_main_arg9 m ρ c)

/-- The result buffer ends holding the network of the launch contents. -/
theorem value (c : Dev nD) :
    W4 m ρ c (Proc.devRef .tc main_v36)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W4_arr m ρ c 7).trans ((Arrays.final1 (V3 m ρ) c).trans ?_)
  show head (layer (W3 m ρ c (Proc.devRef .tc main_v35)) (W3 m ρ c (Proc.devRef .tc main_v22)) (W3 m ρ c (Proc.devRef .tc main_arg5))
    (W3 m ρ c (Proc.devRef .tc main_arg6)) (W3 m ρ c (Proc.devRef .tc main_arg7))) (W3 m ρ c (Proc.devRef .tc main_arg8))
    (W3 m ρ c (Proc.devRef .tc main_arg9)) = _
  rw [W3_agg, W3_h1, W3_arg5, W3_arg6, W3_arg7, W3_arg8, W3_arg9]
  rfl

/-- The run, read: the result at the network of the arguments, the arguments unchanged. -/
theorem run : θ_run defs (onTc (τ := τ) (main (F := Ideal))) ⟨m, fun _ => 0, ρ⟩ (fun r => ∀ c : Dev nD,
      r.2.mem ((c.tc : Thread nD τ).loc main_v36)
        = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (run_named m ρ)

end AtIdeal

end Cert.KernelIdeal.Run

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.RefValue.lean ====
/-
  The reference's result as the mathematics says it: two layers over mean-aggregated neighbours, then the closing
  linear map.

  Read one operation at a time, the reference computes
      h1  = layer(mean(x), x, w1_l, w1_r, b1)
      h2  = layer(mean(h1), h1, w2_l, w2_r, b2)
      out = head(h2, w_lin, b_lin)
  where `mean` is the chain of host operations of the module on mean aggregation, left unopened. A host matrix
  product at an entry is the sum over the shared axis, a bias repeated down the rows reads the bias at the column,
  the rectifier's zero array reads zero, and the in-degree the reference recomputes for the second layer is the same
  term of the edge list as the first.
-/
import proofs.«165902_j37744172597441_2_alg».proof.Proof.Gen.ReferenceIdeal.Read
import proofs.«165902_j37744172597441_2_alg».proof.Proof.Spec
import proofs.«165902_j37744172597441_2_alg».proof.Proof.Mean
import proofs.«165902_j37744172597441_2_alg».proof.Proof.LibHostDot
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Sage

/-- The host's [100000, 128] × [128, 128] product at entry (p, q). -/
theorem dot128 (l : FVec Ideal S100000x128 .f32) (r : FVec Ideal S128x128 .f32) (p : Fin 100000) (q : Fin 128) :
    Host.dotGeneral dot_S100000x128_S128x128_S100000x128_1_0_0_1_n_n none l r (ix2 p q)
      = ∑ k : Fin 128, l (ix2 p k) * r (ix2 k q) :=
  Cert.LibHostDot.dotGeneral_ix2 dot_S100000x128_S128x128_S100000x128_1_0_0_1_n_n rfl rfl rfl rfl
    (fun i c => by
      unfold DotDims.lhsIdx
      rw [dif_neg (show ¬(0 : Fin _) ∈ dot_S100000x128_S128x128_S100000x128_1_0_0_1_n_n.lhsBatch by decide),
        dif_pos (show (0 : Fin _) ∈ dot_S100000x128_S128x128_S100000x128_1_0_0_1_n_n.lhsNonContracting by decide)]
      rfl)
    (fun i c => by
      unfold DotDims.rhsIdx
      rw [dif_neg (show ¬(1 : Fin _) ∈ dot_S100000x128_S128x128_S100000x128_1_0_0_1_n_n.rhsBatch by decide),
        dif_pos (show (1 : Fin _) ∈ dot_S100000x128_S128x128_S100000x128_1_0_0_1_n_n.rhsNonContracting by decide)]
      rfl)
    none l r p q

/-- The host's [100000, 128] × [128, 64] product at entry (p, q). -/
theorem dot64 (l : FVec Ideal S100000x128 .f32) (r : FVec Ideal S128x64 .f32) (p : Fin 100000) (q : Fin 64) :
    Host.dotGeneral dot_S100000x128_S128x64_S100000x64_1_0_0_1_n_n none l r (ix2 p q)
      = ∑ k : Fin 128, l (ix2 p k) * r (ix2 k q) :=
  Cert.LibHostDot.dotGeneral_ix2 dot_S100000x128_S128x64_S100000x64_1_0_0_1_n_n rfl rfl rfl rfl
    (fun i c => by
      unfold DotDims.lhsIdx
      rw [dif_neg (show ¬(0 : Fin _) ∈ dot_S100000x128_S128x64_S100000x64_1_0_0_1_n_n.lhsBatch by decide),
        dif_pos (show (0 : Fin _) ∈ dot_S100000x128_S128x64_S100000x64_1_0_0_1_n_n.lhsNonContracting by decide)]
      rfl)
    (fun i c => by
      unfold DotDims.rhsIdx
      rw [dif_neg (show ¬(1 : Fin _) ∈ dot_S100000x128_S128x64_S100000x64_1_0_0_1_n_n.rhsBatch by decide),
        dif_pos (show (1 : Fin _) ∈ dot_S100000x128_S128x64_S100000x64_1_0_0_1_n_n.rhsNonContracting by decide)]
      rfl)
    none l r p q

/-- A layer spelt with the host's operations — two products, a bias array that reads the bias at the column, a
    zero array — is the layer. -/
theorem layer_of_ops (a x : FVec Ideal S100000x128 .f32) (wl wr : FVec Ideal S128x128 .f32) (b : FVec Ideal S128 .f32)
    (bb zz : FVec Ideal S100000x128 .f32) (hb : ∀ (p : Fin 100000) (q : Fin 128), bb (ix2 p q) = b (ix1 q))
    (hz : ∀ j, zz j = 0) :
    maximumf
      (addf (addf (Host.dotGeneral dot_S100000x128_S128x128_S100000x128_1_0_0_1_n_n none a wl)
        (Host.dotGeneral dot_S100000x128_S128x128_S100000x128_1_0_0_1_n_n none x wr)) bb) zz
      = layer a x wl wr b := by
  funext j
  obtain ⟨p, q, rfl⟩ : ∃ (p : Fin 100000) (q : Fin 128), j = ix2 p q := ⟨j 0, j 1, eq_ix2 j⟩
  rw [layer_ix2]
  unfold layerAt
  rw [maximumf_apply, addf_apply, addf_apply, dot128, dot128, hb, hz]

/-- The closing map spelt with the host's operations is the closing map. -/
theorem head_of_ops (h : FVec Ideal S100000x128 .f32) (w : FVec Ideal S128x64 .f32) (b : FVec Ideal S64 .f32)
    (bb : FVec Ideal S100000x64 .f32) (hb : ∀ (p : Fin 100000) (q : Fin 64), bb (ix2 p q) = b (ix1 q)) :
    addf (Host.dotGeneral dot_S100000x128_S128x64_S100000x64_1_0_0_1_n_n none h w) bb = head h w b := by
  funext j
  obtain ⟨p, q, rfl⟩ : ∃ (p : Fin 100000) (q : Fin 64), j = ix2 p q := ⟨j 0, j 1, eq_ix2 j⟩
  rw [head_ix2]
  unfold headAt
  rw [addf_apply, dot64, hb]

/-- The first layer's bias array reads the bias at the column. -/
theorem bias1 (b : FVec Ideal S128 .f32) (p : Fin 100000) (q : Fin 128) : val_main_v26 (F := Ideal) b (ix2 p q) = b (ix1 q) := by
  rw [val_main_v26_apply, val_main_v25_apply]
  refine congrArg b (funext fun a => ?_)
  match a with
  | ⟨0, _⟩ => rfl

/-- The second layer's bias array reads the bias at the column. -/
theorem bias2 (b : FVec Ideal S128 .f32) (p : Fin 100000) (q : Fin 128) : val_main_v51 (F := Ideal) b (ix2 p q) = b (ix1 q) := by
  rw [val_main_v51_apply, val_main_v50_apply]
  refine congrArg b (funext fun a => ?_)
  match a with
  | ⟨0, _⟩ => rfl

/-- The closing map's bias array reads the bias at the column. -/
theorem bias3 (b : FVec Ideal S64 .f32) (p : Fin 100000) (q : Fin 64) : val_main_v56 (F := Ideal) b (ix2 p q) = b (ix1 q) := by
  rw [val_main_v56_apply, val_main_v55_apply]
  refine congrArg b (funext fun a => ?_)
  match a with
  | ⟨0, _⟩ => rfl

/-- The rectifiers' zero arrays read zero. -/
theorem zeros1 (j : S100000x128.Idx) : val_main_call0_v0 (F := Ideal) j = 0 := by
  rw [val_main_call0_v0_apply, val_main_call0_cst_apply, Ideal.ofBits_def, Ideal.ofBits_zero_f32]
theorem zeros2 (j : S100000x128.Idx) : val_main_call1_v0 (F := Ideal) j = 0 := by
  rw [val_main_call1_v0_apply, val_main_call1_cst_apply, Ideal.ofBits_def, Ideal.ofBits_zero_f32]

/-- The first aggregation is the mean of the features. -/
theorem agg1_eq (x0 : FVec Ideal S100000x128 .f32) (x1 : IVec S2x640000 32) :
    val_main_v21 (F := Ideal) x0 x1 = mean x0 x1 := rfl

/-- The first hidden layer. -/
theorem h1_eq (x0 : FVec Ideal S100000x128 .f32) (x1 : IVec S2x640000 32) (x2 x3 : FVec Ideal S128x128 .f32)
    (x4 : FVec Ideal S128 .f32) :
    val_main_v28 (F := Ideal) x0 x1 x2 x3 x4 = layer (mean x0 x1) x0 x2 x3 x4 := by
  unfold val_main_v28 val_main_v27 val_main_v24 val_main_v22 val_main_v23
  rw [agg1_eq]
  exact layer_of_ops _ _ _ _ _ _ _ (bias1 x4) zeros1

/-- The second aggregation is the mean of the first hidden layer: its in-degree is the same term of the edge list. -/
theorem agg2_eq (x0 : FVec Ideal S100000x128 .f32) (x1 : IVec S2x640000 32) (x2 x3 : FVec Ideal S128x128 .f32)
    (x4 : FVec Ideal S128 .f32) :
    val_main_v46 (F := Ideal) x0 x1 x2 x3 x4 = mean (val_main_v28 (F := Ideal) x0 x1 x2 x3 x4) x1 := rfl

/-- The second hidden layer. -/
theorem h2_eq (x0 : FVec Ideal S100000x128 .f32) (x1 : IVec S2x640000 32) (x2 x3 : FVec Ideal S128x128 .f32)
    (x4 : FVec Ideal S128 .f32) (x5 x6 : FVec Ideal S128x128 .f32) (x7 : FVec Ideal S128 .f32) :
    val_main_v53 (F := Ideal) x0 x1 x2 x3 x4 x5 x6 x7
      = layer (mean (layer (mean x0 x1) x0 x2 x3 x4) x1) (layer (mean x0 x1) x0 x2 x3 x4) x5 x6 x7 := by
  unfold val_main_v53 val_main_v52 val_main_v49 val_main_v47 val_main_v48
  rw [agg2_eq, h1_eq]
  exact layer_of_ops _ _ _ _ _ _ _ (bias2 x7) zeros2

/-- The reference's result. -/
theorem out_eq (x0 : FVec Ideal S100000x128 .f32) (x1 : IVec S2x640000 32) (x2 x3 : FVec Ideal S128x128 .f32)
    (x4 : FVec Ideal S128 .f32) (x5 x6 : FVec Ideal S128x128 .f32) (x7 : FVec Ideal S128 .f32)
    (x8 : FVec Ideal S128x64 .f32) (x9 : FVec Ideal S64 .f32) :
    val_main_v57 (F := Ideal) x0 x1 x2 x3 x4 x5 x6 x7 x8 x9 = net x0 x1 x2 x3 x4 x5 x6 x7 x8 x9 := by
  unfold val_main_v57 val_main_v54 net
  rw [h2_eq]
  exact head_of_ops _ _ _ _ (bias3 x9)

end Cert.ReferenceIdeal.RefValue

end
-- ==== Proof.lean ====
/-
  A two-layer graph network — mean aggregation over incoming edges, a linear map of the aggregate plus a linear map
  of the node's own features plus a bias, a rectifier; twice; then a closing linear map — computed two ways.

  One program runs the aggregation as host operations and each layer's matrix products, bias and rectifier in a
  kernel that walks the 100000 nodes in 20 blocks of 5000 rows (the second kernel also applies the closing map), with
  the operands of the matrix unit and the first layer's output narrowed to a 16-bit float format. The other is the
  plain array program. On the extended reals a change of float format is the identity, a matrix product into a zero
  accumulator is the sum of products the host's product is, and a row of a layer reads only the same row of its
  row-indexed operands, so 20 row blocks of a layer are the layer. Both programs therefore end with
      net(x, edges, w1_l, w1_r, b1, w2_l, w2_r, b2, w_lin, b_lin)
        = head(layer(mean(h1), h1, w2_l, w2_r, b2), w_lin, b_lin),   h1 = layer(mean(x), x, w1_l, w1_r, b1),
  with `mean` the SAME chain of gather, scatter-add and division in both, applied to equal arguments and never
  opened. No law of arithmetic that could fail at an infinity is used, so the finiteness of the inputs is not needed.

  The three frames: the kernel program's two (at the word level and at the ideal values) are the generated frame
  certificates; the reference's is its generated run with the result dropped. The idealization rewrote nothing, so
  there is nothing to preserve.
-/
import proofs.«165902_j37744172597441_2_alg».proof.Defs
import proofs.«165902_j37744172597441_2_alg».proof.Proof.Gen.Kernel
import proofs.«165902_j37744172597441_2_alg».proof.Proof.Gen.Kernel.Skeleton
import proofs.«165902_j37744172597441_2_alg».proof.Proof.Gen.Kernel.Launch
import proofs.«165902_j37744172597441_2_alg».proof.Proof.Gen.Kernel.Points
import proofs.«165902_j37744172597441_2_alg».proof.Proof.Gen.Kernel.Frame
import proofs.«165902_j37744172597441_2_alg».proof.Proof.Gen.KernelIdeal
import proofs.«165902_j37744172597441_2_alg».proof.Proof.Gen.KernelIdeal.Skeleton
import proofs.«165902_j37744172597441_2_alg».proof.Proof.Gen.KernelIdeal.Launch
import proofs.«165902_j37744172597441_2_alg».proof.Proof.Gen.KernelIdeal.Points
import proofs.«165902_j37744172597441_2_alg».proof.Proof.Gen.KernelIdeal.Frame
import proofs.«165902_j37744172597441_2_alg».proof.Proof.Gen.ReferenceIdeal
import proofs.«165902_j37744172597441_2_alg».proof.Proof.Gen.Pre_finite_inputs
import proofs.«165902_j37744172597441_2_alg».proof.Proof.Gen.ReferenceIdeal.Run
import proofs.«165902_j37744172597441_2_alg».proof.Proof.Gen.ReferenceIdeal.Read
import proofs.«165902_j37744172597441_2_alg».proof.Proof.KernelRun
import proofs.«165902_j37744172597441_2_alg».proof.Proof.RefValue
import Idealize.ShloMosaic.Adequacy
import Idealize.ShloMosaic.Init

noncomputable section

namespace Cert.Proof

open Idealize.ShloMosaic Idealize.SL.Sem

/-- The kernel program at the word level runs and leaves its arguments as launched. -/
theorem frame_kernel : Cert.frame_Kernel := fun m ρ _ => Cert.Kernel.Gen.frame m ρ

/-- The same at the ideal values. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the network of those arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v57_eq, Cert.ReferenceIdeal.RefValue.out_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
